-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128 : Shape := ⟨3, ![32, 128, 128]⟩
abbrev S32x128x128x128 : Shape := ⟨4, ![32, 128, 128, 128]⟩
abbrev S131072x3 : Shape := ⟨2, ![131072, 3]⟩
abbrev S384x768 : Shape := ⟨2, ![384, 768]⟩
abbrev S768 : Shape := ⟨1, ![768]⟩
abbrev S_ : Shape := ⟨0, ![]⟩

class Facts : Prop where
  bcast_S_S32x128x128 : S_.BroadcastsInDim S32x128x128 (![] : Fin 0 → Fin S32x128x128.rank)
  reducesTo_S32x128x128_S_d0_1_2 : S32x128x128.ReducesTo [0, 1, 2] S_
  h_S_ : 0 < S_.numel
  bcast_S_S32x128x128x128 : S_.BroadcastsInDim S32x128x128x128 (![] : Fin 0 → Fin S32x128x128x128.rank)
  reducesTo_S32x128x128x128_S_d0_1_2_3 : S32x128x128x128.ReducesTo [0, 1, 2, 3] S_
  bcast_S_S384x768 : S_.BroadcastsInDim S384x768 (![] : Fin 0 → Fin S384x768.rank)
  reducesTo_S384x768_S_d0_1 : S384x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S32x128x128 .f32) (main_arg1 : FVec F S32x128x128x128 .f32) (main_arg2 : IVec S131072x3 32) (main_arg3 : FVec F S384x768 .f32) (main_arg4 : FVec F S768 .f32) : IVec S_ 1 :=
  let main_v0 : FVec F S32x128x128 .f32 := Host.absf main_arg0
  let main_cst : FVec F S_ .f32 := constant S_ .f32 0x7F800000#32
  let main_v1 : FVec F S32x128x128 .f32 := broadcastInDim S32x128x128 ![] bcast_S_S32x128x128 main_cst
  let main_v2 : IVec S32x128x128 1 := cmpf .olt main_v0 main_v1
  let main_c : IVec S_ 1 := constantI S_ 1 1#1
  let main_v3 : IVec S_ 1 := (fun x v => Host.reduce IntOp.andi x v reducesTo_S32x128x128_S_d0_1_2 h_S_) main_v2 main_c
  let main_v4 : FVec F S32x128x128x128 .f32 := Host.absf main_arg1
  let main_cst_0 : FVec F S_ .f32 := constant S_ .f32 0x7F800000#32
  let main_v5 : FVec F S32x128x128x128 .f32 := broadcastInDim S32x128x128x128 ![] bcast_S_S32x128x128x128 main_cst_0
  let main_v6 : IVec S32x128x128x128 1 := cmpf .olt main_v4 main_v5
  let main_c_1 : IVec S_ 1 := constantI S_ 1 1#1
  let main_v7 : IVec S_ 1 := (fun x v => Host.reduce IntOp.andi x v reducesTo_S32x128x128x128_S_d0_1_2_3 h_S_) main_v6 main_c_1
  let main_v8 : IVec S_ 1 := andi main_v3 main_v7
  let main_v9 : FVec F S384x768 .f32 := Host.absf main_arg3
  let main_cst_2 : FVec F S_ .f32 := constant S_ .f32 0x7F800000#32
  let main_v10 : FVec F S384x768 .f32 := broadcastInDim S384x768 ![] bcast_S_S384x768 main_cst_2
  let main_v11 : IVec S384x768 1 := cmpf .olt main_v9 main_v10
  let main_c_3 : IVec S_ 1 := constantI S_ 1 1#1
  let main_v12 : IVec S_ 1 := (fun x v => Host.reduce IntOp.andi x v reducesTo_S384x768_S_d0_1 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S32x128x128 : Shape := ⟨3, ![32, 128, 128]⟩
abbrev S32x128x128x128 : Shape := ⟨4, ![32, 128, 128, 128]⟩
abbrev S131072x3 : Shape := ⟨2, ![131072, 3]⟩
abbrev S384x768 : Shape := ⟨2, ![384, 768]⟩
abbrev S768 : Shape := ⟨1, ![768]⟩
abbrev S131072x1 : Shape := ⟨2, ![131072, 1]⟩
abbrev S131072 : Shape := ⟨1, ![131072]⟩
abbrev S_ : Shape := ⟨0, ![]⟩
abbrev S131072x2 : Shape := ⟨2, ![131072, 2]⟩
abbrev S131072x128 : Shape := ⟨2, ![131072, 128]⟩
abbrev S131072x384 : Shape := ⟨2, ![131072, 384]⟩
abbrev S131072x768 : Shape := ⟨2, ![131072, 768]⟩
abbrev S4096x384 : Shape := ⟨2, ![4096, 384]⟩
abbrev S4096x768 : Shape := ⟨2, ![4096, 768]⟩
abbrev S1x768 : Shape := ⟨2, ![1, 768]⟩
abbrev S32x4096x768 : Shape := ⟨3, ![32, 4096, 768]⟩

abbrev nBuf : Space → Nat
  | .hbm => 77
  | .vmem => 6
  | .smem => 0
  | _ => 0

abbrev bufTy : (tb : Table) → Fin (tcTables nBuf tb) → BufTy
  | .hbm, ⟨0, _⟩ => ⟨S32x128x128, .f32⟩
  | .hbm, ⟨1, _⟩ => ⟨S32x128x128x128, .f32⟩
  | .hbm, ⟨2, _⟩ => ⟨S131072x3, .i32⟩
  | .hbm, ⟨3, _⟩ => ⟨S384x768, .f32⟩
  | .hbm, ⟨4, _⟩ => ⟨S768, .f32⟩
  | .hbm, ⟨5, _⟩ => ⟨S131072x1, .i32⟩
  | .hbm, ⟨6, _⟩ => ⟨S131072, .i32⟩
  | .hbm, ⟨7, _⟩ => ⟨S131072x1, .i32⟩
  | .hbm, ⟨8, _⟩ => ⟨S131072, .i32⟩
  | .hbm, ⟨9, _⟩ => ⟨S131072x1, .i32⟩
  | .hbm, ⟨10, _⟩ => ⟨S131072, .i32⟩
  | .hbm, ⟨11, _⟩ => ⟨S_, .i32⟩
  | .hbm, ⟨12, _⟩ => ⟨S131072, .i32⟩
  | .hbm, ⟨13, _⟩ => ⟨S131072, .i1⟩
  | .hbm, ⟨14, _⟩ => ⟨S_, .i32⟩
  | .hbm, ⟨15, _⟩ => ⟨S131072, .i32⟩
  | .hbm, ⟨16, _⟩ => ⟨S131072, .i32⟩
  | .hbm, ⟨17, _⟩ => ⟨S131072, .i32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x1, .i32⟩
  | .hbm, ⟨27, _⟩ => ⟨S131072x2, .i32⟩
  | .hbm, ⟨28, _⟩ => ⟨S131072x128, .f32⟩
  | .hbm, ⟨29, _⟩ => ⟨S_, .i32⟩
  | .hbm, ⟨30, _⟩ => ⟨S131072, .i32⟩
  | .hbm, ⟨31, _⟩ => ⟨S131072, .i1⟩
  | .hbm, ⟨32, _⟩ => ⟨S_, .i32⟩
  | .hbm, ⟨33, _⟩ => ⟨S131072, .i32⟩
  | .hbm, ⟨34, _⟩ => ⟨S131072, .i32⟩
  | .hbm, ⟨35, _⟩ => ⟨S131072, .i32⟩
  | .hbm, ⟨36, _⟩ => ⟨S_, .i32⟩
  | .hbm, ⟨37, _⟩ => ⟨S131072, .i32⟩
  | .hbm, ⟨38, _⟩ => ⟨S131072, .i1⟩
  | .hbm, ⟨39, _⟩ => ⟨S_, .i32⟩
  | .hbm, ⟨40, _⟩ => ⟨S131072, .i32⟩
  | .hbm, ⟨41, _⟩ => ⟨S131072, .i32⟩
  | .hbm, ⟨42, _⟩ => ⟨S131072, .i32⟩
  | .hbm, ⟨43, _⟩ => ⟨S131072x1, .i32⟩
  | .hbm, ⟨44, _⟩ => ⟨S131072x1, .i32⟩
  | .hbm, ⟨45, _⟩ => ⟨S131072x2, .i32⟩
  | .hbm, ⟨46, _⟩ => ⟨S131072x128, .f32⟩
  | .hbm, ⟨47, _⟩ => ⟨S_, .i32⟩
  | .hbm, ⟨48, _⟩ => ⟨S131072, .i32⟩
  | .hbm, ⟨49, _⟩ => ⟨S131072, .i1⟩
  | .hbm, ⟨50, _⟩ => ⟨S_, .i32⟩
  | .hbm, ⟨51, _⟩ => ⟨S131072, .i32⟩
  | .hbm, ⟨52, _⟩ => ⟨S131072, .i32⟩
  | .hbm, ⟨53, _⟩ => ⟨S131072, .i32⟩
  | .hbm, ⟨54, _⟩ => ⟨S_, .i32⟩
  | .hbm, ⟨55, _⟩ => ⟨S131072, .i32⟩
  | .hbm, ⟨56, _⟩ => ⟨S131072, .i1⟩
  | .hbm, ⟨57, _⟩ => ⟨S_, .i32⟩
  | .hbm, ⟨58, _⟩ => ⟨S131072, .i32⟩
  | .hbm, ⟨59, _⟩ => ⟨S131072, .i32⟩
  | .hbm, ⟨60, _⟩ => ⟨S131072, .i32⟩
  | .hbm, ⟨61, _⟩ => ⟨S_, .i32⟩
  | .hbm, ⟨62, _⟩ => ⟨S131072, .i32⟩
  | .hbm, ⟨63, _⟩ => ⟨S131072, .i1⟩
  | .hbm, ⟨64, _⟩ => ⟨S_, .i32⟩
  | .hbm, ⟨65, _⟩ => ⟨S131072, .i32⟩
  | .hbm, ⟨66, _⟩ => ⟨S131072, .i32⟩
  | .hbm, ⟨67, _⟩ => ⟨S131072, .i32⟩
  | .hbm, ⟨68, _⟩ => ⟨S131072x1, .i32⟩
  | .hbm, ⟨69, _⟩ => ⟨S131072x1, .i32⟩
  | .hbm, ⟨70, _⟩ => ⟨S131072x1, .i32⟩
  | .hbm, ⟨71, _⟩ => ⟨S131072x3, .i32⟩
  | .hbm, ⟨72, _⟩ => ⟨S131072x128, .f32⟩
  | .hbm, ⟨73, _⟩ => ⟨S131072x384, .f32⟩
  | .hbm, ⟨74, _⟩ => ⟨S384x768, .bf16⟩
  | .hbm, ⟨75, _⟩ => ⟨S131072x768, .f32⟩
  | .hbm, ⟨76, _⟩ => ⟨S32x4096x768, .f32⟩
  | .local _ .vmem, ⟨0, _⟩ => ⟨S4096x384, .f32⟩
  | .local _ .vmem, ⟨1, _⟩ => ⟨S4096x384, .f32⟩
  | .local _ .vmem, ⟨2, _⟩ => ⟨S384x768, .bf16⟩
  | .local _ .vmem, ⟨3, _⟩ => ⟨S768, .f32⟩
  | .local _ .vmem, ⟨4, _⟩ => ⟨S4096x768, .f32⟩
  | .local _ .vmem, ⟨5, _⟩ => ⟨S4096x768, .f32⟩
  | _, _ => ⟨S32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_v40 : Ref sig .tc := ⟨.hbm, 56, rfl⟩
abbrev main_c_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_11 : Ref sig .tc := ⟨.hbm, 61, rfl⟩
abbrev main_v44 : Ref sig .tc := ⟨.hbm, 62, rfl⟩
abbrev main_v45 : Ref sig .tc := ⟨.hbm, 63, rfl⟩
abbrev main_c_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S131072x3_S131072x1_0_0 : S131072x3.Slices ![0, 0] S131072x1
  shapeCasts_S131072x1_S131072 : S131072x1.ShapeCasts S131072
  slices_S131072x3_S131072x1_0_1 : S131072x3.Slices ![0, 1] S131072x1
  slices_S131072x3_S131072x1_0_2 : S131072x3.Slices ![0, 2] S131072x1
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  concatenates_S131072x1_S131072x1_S131072x1_S131072x3_d1 : Shape.Concatenates [S131072x1, S131072x1, S131072x1] S131072x3 1
  concatenates_S131072x128_S131072x128_S131072x128_S131072x384_d1 : Shape.Concatenates [S131072x128, S131072x128, S131072x128] S131072x384 1
  bitsLt_bf16_f32 : FTy.bits .bf16 < FTy.bits .f32
  inb_S4096x384_S4096x384_0_0 : ∀ a, (![0, 0] : Fin 2 → Nat) a + S4096x384.size a ≤ S4096x384.size a
  h_S4096x384 : 0 < S4096x384.numel
  shapeCasts_S4096x384_S4096x384 : S4096x384.ShapeCasts S4096x384
  inb_S384x768_S384x768_0_0 : ∀ a, (![0, 0] : Fin 2 → Nat) a + S384x768.size a ≤ S384x768.size a
  h_S384x768 : 0 < S384x768.numel
  shapeCasts_S384x768_S384x768 : S384x768.ShapeCasts S384x768
  inb_S768_S768_0 : ∀ a, (![0] : Fin 1 → Nat) a + S768.size a ≤ S768.size a
  h_S768 : 0 < S768.numel
  shapeCasts_S768_S1x768 : S768.ShapeCasts S1x768
  broadcasts_S1x768_S4096x768 : S1x768.Broadcasts S4096x768
  inb_S4096x768_S4096x768_0_0 : ∀ a, (![0, 0] : Fin 2 → Nat) a + S4096x768.size a ≤ S4096x768.size a
  h_S4096x768 : 0 < S4096x768.numel
  shapeCasts_S131072x768_S32x4096x768 : S131072x768.ShapeCasts S32x4096x768
  gather_S32x128x128_S131072x2_S131072x128_1_01_n_n_01_1_11128_wf : GatherDims.WF S32x128x128 S131072x2 S131072x128 [1] [0, 1] [] [0, 1] [] 1 ![1, 1, 128]
  gather_S32x128x128x128_S131072x3_S131072x128_1_012_n_n_012_1_111128_wf : GatherDims.WF S32x128x128x128 S131072x3 S131072x128 [1] [0, 1, 2] [] [0, 1, 2] [] 1 ![1, 1, 1, 128]
  dot_S4096x384_S384x768_S4096x768_1_0_0_1_n_n_wf : DotDims.WF S4096x384 S384x768 S4096x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x384.size a ≤ S131072x384.size a
  hwx0_0 : ∀ i : grid0.Coords, EltTy.bits .f32 = 32 ∨ (Rect.block (s := S131072x384) S4096x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x768.size a ≤ S384x768.size a
  hwx0_1 : ∀ i : grid0.Coords, EltTy.bits .bf16 = 32 ∨ (Rect.block (s := S384x768) S384x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x768.size a ≤ S131072x768.size a
  hwx0_3 : ∀ i : grid0.Coords, EltTy.bits .f32 = 32 ∨ (Rect.block (s := S131072x768) S4096x768.size (cc0_transform_3 i) (hinb0_3 i)).WholeWords (EltTy.packing .f32)

variable [Facts₀]

def gather_S32x128x128_S131072x2_S131072x128_1_01_n_n_01_1_11128 : GatherDims S32x128x128 S131072x2 S131072x128 where
  offsetDims := [1]
  collapsedSliceDims := [0, 1]
  operandBatchingDims := []
  startIndicesBatchingDims := []
  startIndexMap := [0, 1]
  indexVectorDim := 1
  sliceSizes := ![1, 1, 128]
  wf := gather_S32x128x128_S131072x2_S131072x128_1_01_n_n_01_1_11128_wf
def gather_S32x128x128x128_S131072x3_S131072x128_1_012_n_n_012_1_111128 : GatherDims S32x128x128x128 S131072x3 S131072x128 where
  offsetDims := [1]
  collapsedSliceDims := [0, 1, 2]
  operandBatchingDims := []
  startIndicesBatchingDims := []
  startIndexMap := [0, 1, 2]
  indexVectorDim := 1
  sliceSizes := ![1, 1, 1, 128]
  wf := gather_S32x128x128x128_S131072x3_S131072x128_1_012_n_n_012_1_111128_wf
def dot_S4096x384_S384x768_S4096x768_1_0_0_1_n_n : DotDims S4096x384 S384x768 S4096x768 where
  lhsContracting := [1]
  rhsContracting := [0]
  lhsNonContracting := [0]
  rhsNonContracting := [1]
  lhsBatch := []
  rhsBatch := []
  wf := dot_S4096x384_S384x768_S4096x768_1_0_0_1_n_n_wf

abbrev win0_0 : Pipeline.Window sig grid0 :=
  Pipeline.Window.ofSpec (Memref.whole main_v54) S4096x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S384x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v56) S4096x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128x128 : Shape := ⟨3, ![32, 128, 128]⟩
abbrev S32x128x128x128 : Shape := ⟨4, ![32, 128, 128, 128]⟩
abbrev S131072x3 : Shape := ⟨2, ![131072, 3]⟩
abbrev S384x768 : Shape := ⟨2, ![384, 768]⟩
abbrev S768 : Shape := ⟨1, ![768]⟩
abbrev S131072x1 : Shape := ⟨2, ![131072, 1]⟩
abbrev S131072 : Shape := ⟨1, ![131072]⟩
abbrev S_ : Shape := ⟨0, ![]⟩
abbrev S131072x2 : Shape := ⟨2, ![131072, 2]⟩
abbrev S131072x128 : Shape := ⟨2, ![131072, 128]⟩
abbrev S131072x384 : Shape := ⟨2, ![131072, 384]⟩
abbrev S131072x768 : Shape := ⟨2, ![131072, 768]⟩
abbrev S1x768 : Shape := ⟨2, ![1, 768]⟩
abbrev S32x4096x768 : Shape := ⟨3, ![32, 4096, 768]⟩

abbrev nBuf : Space → Nat
  | .hbm => 79
  | .vmem => 0
  | .smem => 0
  | _ => 0

abbrev bufTy : (tb : Table) → Fin (tcTables nBuf tb) → BufTy
  | .hbm, ⟨0, _⟩ => ⟨S32x128x128, .f32⟩
  | .hbm, ⟨1, _⟩ => ⟨S32x128x128x128, .f32⟩
  | .hbm, ⟨2, _⟩ => ⟨S131072x3, .i32⟩
  | .hbm, ⟨3, _⟩ => ⟨S384x768, .f32⟩
  | .hbm, ⟨4, _⟩ => ⟨S768, .f32⟩
  | .hbm, ⟨5, _⟩ => ⟨S131072x1, .i32⟩
  | .hbm, ⟨6, _⟩ => ⟨S131072, .i32⟩
  | .hbm, ⟨7, _⟩ => ⟨S131072x1, .i32⟩
  | .hbm, ⟨8, _⟩ => ⟨S131072, .i32⟩
  | .hbm, ⟨9, _⟩ => ⟨S131072x1, .i32⟩
  | .hbm, ⟨10, _⟩ => ⟨S131072, .i32⟩
  | .hbm, ⟨11, _⟩ => ⟨S_, .i32⟩
  | .hbm, ⟨12, _⟩ => ⟨S131072, .i32⟩
  | .hbm, ⟨13, _⟩ => ⟨S131072, .i1⟩
  | .hbm, ⟨14, _⟩ => ⟨S_, .i32⟩
  | .hbm, ⟨15, _⟩ => ⟨S131072, .i32⟩
  | .hbm, ⟨16, _⟩ => ⟨S131072, .i32⟩
  | .hbm, ⟨17, _⟩ => ⟨S131072, .i32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x1, .i32⟩
  | .hbm, ⟨27, _⟩ => ⟨S131072x2, .i32⟩
  | .hbm, ⟨28, _⟩ => ⟨S131072x128, .f32⟩
  | .hbm, ⟨29, _⟩ => ⟨S_, .i32⟩
  | .hbm, ⟨30, _⟩ => ⟨S131072, .i32⟩
  | .hbm, ⟨31, _⟩ => ⟨S131072, .i1⟩
  | .hbm, ⟨32, _⟩ => ⟨S_, .i32⟩
  | .hbm, ⟨33, _⟩ => ⟨S131072, .i32⟩
  | .hbm, ⟨34, _⟩ => ⟨S131072, .i32⟩
  | .hbm, ⟨35, _⟩ => ⟨S131072, .i32⟩
  | .hbm, ⟨36, _⟩ => ⟨S_, .i32⟩
  | .hbm, ⟨37, _⟩ => ⟨S131072, .i32⟩
  | .hbm, ⟨38, _⟩ => ⟨S131072, .i1⟩
  | .hbm, ⟨39, _⟩ => ⟨S_, .i32⟩
  | .hbm, ⟨40, _⟩ => ⟨S131072, .i32⟩
  | .hbm, ⟨41, _⟩ => ⟨S131072, .i32⟩
  | .hbm, ⟨42, _⟩ => ⟨S131072, .i32⟩
  | .hbm, ⟨43, _⟩ => ⟨S131072x1, .i32⟩
  | .hbm, ⟨44, _⟩ => ⟨S131072x1, .i32⟩
  | .hbm, ⟨45, _⟩ => ⟨S131072x2, .i32⟩
  | .hbm, ⟨46, _⟩ => ⟨S131072x128, .f32⟩
  | .hbm, ⟨47, _⟩ => ⟨S_, .i32⟩
  | .hbm, ⟨48, _⟩ => ⟨S131072, .i32⟩
  | .hbm, ⟨49, _⟩ => ⟨S131072, .i1⟩
  | .hbm, ⟨50, _⟩ => ⟨S_, .i32⟩
  | .hbm, ⟨51, _⟩ => ⟨S131072, .i32⟩
  | .hbm, ⟨52, _⟩ => ⟨S131072, .i32⟩
  | .hbm, ⟨53, _⟩ => ⟨S131072, .i32⟩
  | .hbm, ⟨54, _⟩ => ⟨S_, .i32⟩
  | .hbm, ⟨55, _⟩ => ⟨S131072, .i32⟩
  | .hbm, ⟨56, _⟩ => ⟨S131072, .i1⟩
  | .hbm, ⟨57, _⟩ => ⟨S_, .i32⟩
  | .hbm, ⟨58, _⟩ => ⟨S131072, .i32⟩
  | .hbm, ⟨59, _⟩ => ⟨S131072, .i32⟩
  | .hbm, ⟨60, _⟩ => ⟨S131072, .i32⟩
  | .hbm, ⟨61, _⟩ => ⟨S_, .i32⟩
  | .hbm, ⟨62, _⟩ => ⟨S131072, .i32⟩
  | .hbm, ⟨63, _⟩ => ⟨S131072, .i1⟩
  | .hbm, ⟨64, _⟩ => ⟨S_, .i32⟩
  | .hbm, ⟨65, _⟩ => ⟨S131072, .i32⟩
  | .hbm, ⟨66, _⟩ => ⟨S131072, .i32⟩
  | .hbm, ⟨67, _⟩ => ⟨S131072, .i32⟩
  | .hbm, ⟨68, _⟩ => ⟨S131072x1, .i32⟩
  | .hbm, ⟨69, _⟩ => ⟨S131072x1, .i32⟩
  | .hbm, ⟨70, _⟩ => ⟨S131072x1, .i32⟩
  | .hbm, ⟨71, _⟩ => ⟨S131072x3, .i32⟩
  | .hbm, ⟨72, _⟩ => ⟨S131072x128, .f32⟩
  | .hbm, ⟨73, _⟩ => ⟨S131072x384, .f32⟩
  | .hbm, ⟨74, _⟩ => ⟨S131072x768, .f32⟩
  | .hbm, ⟨75, _⟩ => ⟨S1x768, .f32⟩
  | .hbm, ⟨76, _⟩ => ⟨S131072x768, .f32⟩
  | .hbm, ⟨77, _⟩ => ⟨S131072x768, .f32⟩
  | .hbm, ⟨78, _⟩ => ⟨S32x4096x768, .f32⟩
  | _, _ => ⟨S32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_v40 : Ref sig .tc := ⟨.hbm, 56, rfl⟩
abbrev main_c_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_11 : Ref sig .tc := ⟨.hbm, 61, rfl⟩
abbrev main_v44 : Ref sig .tc := ⟨.hbm, 62, rfl⟩
abbrev main_v45 : Ref sig .tc := ⟨.hbm, 63, rfl⟩
abbrev main_c_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]

class Facts₀ : Prop where
  slices_S131072x3_S131072x1_0_0 : S131072x3.Slices ![0, 0] S131072x1
  shapeCasts_S131072x1_S131072 : S131072x1.ShapeCasts S131072
  slices_S131072x3_S131072x1_0_1 : S131072x3.Slices ![0, 1] S131072x1
  slices_S131072x3_S131072x1_0_2 : S131072x3.Slices ![0, 2] S131072x1
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  concatenates_S131072x1_S131072x1_S131072x1_S131072x3_d1 : Shape.Concatenates [S131072x1, S131072x1, S131072x1] S131072x3 1
  concatenates_S131072x128_S131072x128_S131072x128_S131072x384_d1 : Shape.Concatenates [S131072x128, S131072x128, S131072x128] S131072x384 1
  bcast_S768_S1x768_1 : S768.BroadcastsInDim S1x768 (![1] : Fin 1 → Fin S1x768.rank)
  bcast_S1x768_S131072x768_0_1 : S1x768.BroadcastsInDim S131072x768 (![0, 1] : Fin 2 → Fin S131072x768.rank)
  shapeCasts_S131072x768_S32x4096x768 : S131072x768.ShapeCasts S32x4096x768
  gather_S32x128x128_S131072x2_S131072x128_1_01_n_n_01_1_11128_wf : GatherDims.WF S32x128x128 S131072x2 S131072x128 [1] [0, 1] [] [0, 1] [] 1 ![1, 1, 128]
  gather_S32x128x128x128_S131072x3_S131072x128_1_012_n_n_012_1_111128_wf : GatherDims.WF S32x128x128x128 S131072x3 S131072x128 [1] [0, 1, 2] [] [0, 1, 2] [] 1 ![1, 1, 1, 128]
  dot_S131072x384_S384x768_S131072x768_1_0_0_1_n_n_wf : DotDims.WF S131072x384 S384x768 S131072x768 [1] [0] [0] [1] [] []

variable [Facts₀]

def gather_S32x128x128_S131072x2_S131072x128_1_01_n_n_01_1_11128 : GatherDims S32x128x128 S131072x2 S131072x128 where
  offsetDims := [1]
  collapsedSliceDims := [0, 1]
  operandBatchingDims := []
  startIndicesBatchingDims := []
  startIndexMap := [0, 1]
  indexVectorDim := 1
  sliceSizes := ![1, 1, 128]
  wf := gather_S32x128x128_S131072x2_S131072x128_1_01_n_n_01_1_11128_wf
def gather_S32x128x128x128_S131072x3_S131072x128_1_012_n_n_012_1_111128 : GatherDims S32x128x128x128 S131072x3 S131072x128 where
  offsetDims := [1]
  collapsedSliceDims := [0, 1, 2]
  operandBatchingDims := []
  startIndicesBatchingDims := []
  startIndexMap := [0, 1, 2]
  indexVectorDim := 1
  sliceSizes := ![1, 1, 1, 128]
  wf := gather_S32x128x128x128_S131072x3_S131072x128_1_012_n_n_012_1_111128_wf
def dot_S131072x384_S384x768_S131072x768_1_0_0_1_n_n : DotDims S131072x384 S384x768 S131072x768 where
  lhsContracting := [1]
  rhsContracting := [0]
  lhsNonContracting := [0]
  rhsNonContracting := [1]
  lhsBatch := []
  rhsBatch := []
  wf := dot_S131072x384_S384x768_S131072x768_1_0_0_1_n_n_wf

class Facts : Prop extends Facts₀ where

variable [Facts]
-- ==== Proof.KernelFrame.lean ====
/-
  The run of `Kernel`'s @main, at any float instance: seventy host operations (the three row gathers of the pair
  list and their concatenation, the weight's change of format), one region of 32 grid points, and one reshape.
  At grid point `t` the region's body reads rows `4096·t … 4096·t + 4095` of the gathered matrix (a block of
  4096 × 384), the whole 384 × 768 weight and the whole bias of length 768, and stores one 4096 × 768 block of
  the product plus the bias; the block it stores covers its buffer, and the 32 blocks are written back to rows
  `4096·t …` of the 131072 × 768 result. No host operation writes an argument array and the region writes only
  its result array, so the five arguments end as they began. The run names the contents of every array of the
  region afterwards, and of every other buffer as the closing reshape leaves it.
-/
import proofs.«118170_j6055903887543_1_alg».proof.Proof.Gen.Kernel.Launch
import proofs.«118170_j6055903887543_1_alg».proof.Proof.Gen.Kernel.Skeleton
import proofs.«118170_j6055903887543_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The buffers of core `c` after the seventy host operations before the region. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations, then the region, then the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only buffers that outlive the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result, which is none of the region's four arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-! ## The blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not: where it is not
    fetched its block index has not moved since the fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or not: where it is not
    fetched its block index has not moved since the fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or not: where it is not
    fetched its block index has not moved since the fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

abbrev rA : Rect S4096x384 := Rect.unit (s := S4096x384) ![0, 0] S4096x384.size Facts₀.inb_S4096x384_S4096x384_0_0
abbrev rW : Rect S384x768 := Rect.unit (s := S384x768) ![0, 0] S384x768.size Facts₀.inb_S384x768_S384x768_0_0
abbrev rB : Rect S768 := Rect.unit (s := S768) ![0] S768.size Facts₀.inb_S768_S768_0
abbrev rO : Rect S4096x768 := Rect.unit (s := S4096x768) ![0, 0] S4096x768.size Facts₀.inb_S4096x768_S4096x768_0_0

/-- The result window's buffer after the body: one store of the product-plus-bias of the three input blocks,
    through the rectangle that is the whole 4096 × 768 buffer. -/
def outBlock (a : Vec F S4096x384 .f32) (w : Vec F S384x768 .bf16) (b : Vec F S768 .f32) : Vec F S4096x768 .f32 :=
  View.canon [⟨rO, k0_pay1 (View.ld a rA) (View.ld w rW) (View.ld b rB)⟩]

/-- That one rectangle covers the buffer. -/
theorem outBlock_cover (p0 : Vec F S4096x768 .f32) (y : S4096x768.Idx) :
    ∃ pc ∈ ([⟨rO, p0⟩] : List (View.Piece (Elt F) S4096x768 .f32)), y ∈ pc.1.set :=
  View.cover_of_tiled [⟨rO, p0⟩] S4096x768.size (by rfl) y

/-! ## The body -/

set_option maxHeartbeats 1000000 in
/-- The body on whole buffers, the three inputs' at contents `a`, `w`, `b` and the result's at anything, returns with
    the inputs' as they were and the result's at `outBlock a w b` (its read of the result buffer is not used). -/
theorem sound_kernel (c : Dev nD) (E : Set ℕ) (i : grid0.Coords) (arg1 : Memref sig .tc .vmem S4096x384 .f32) (harg1 : arg1.IsWhole) (arg2 : Memref sig .tc .vmem S384x768 .bf16) (harg2 : arg2.IsWhole) (arg3 : Memref sig .tc .vmem S768 .f32) (harg3 : arg3.IsWhole) (arg4 : Memref sig .tc .vmem S4096x768 .f32) (harg4 : arg4.IsWhole)
    (a : Vec F S4096x384 .f32) (w : Vec F S384x768 .bf16) (b : Vec F S768 .f32) (K : PUnit → sProp 𝕄) :
    iprop(owns (c : Thread nD τ) arg1 fullShare a ∗ owns (c : Thread nD τ) arg2 fullShare w ∗ owns (c : Thread nD τ) arg3 fullShare b ∗ (∃ d, owns (c : Thread nD τ) arg4 fullShare d)
        ∗ (iprop(owns (c : Thread nD τ) arg1 fullShare a ∗ owns (c : Thread nD τ) arg2 fullShare w ∗ owns (c : Thread nD τ) arg3 fullShare b ∗ owns (c : Thread nD τ) arg4 fullShare (outBlock a w b)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-! ## The region's proof data -/

/-- On core `c`: the arrays as the region finds them; after the body at point `t` each input buffer at its block
    and the result buffer at `outBlock` of the three input blocks; nothing else used, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the input buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; afterwards each array of the region holds what the 32
    write-backs leave, and every other unscoped buffer what the closing reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The reshape does not write argument 0, and the region's arrays are other buffers: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The reshape does not write argument 1, and the region's arrays are other buffers: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The reshape does not write argument 2, and the region's arrays are other buffers: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The reshape does not write argument 3, and the region's arrays are other buffers: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The run with the result named and the five arguments unchanged: the first four are buffers the region does
    not stage, the bias is an input array of the region and keeps its entry contents. -/
theorem run_named : θ_run defs (onTc (τ := τ) (main (F := F))) ⟨m, fun _ => 0, ρ⟩ (fun r => ∀ c : Dev nD,
      r.2.mem ((c.tc : Thread nD τ).loc main_v57) = Pipeline.afterTail₀ cfgs (dats m) 0 (V0 m) [hostOps1] c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v57 (Pipeline.mem_restRefs_of main_v57 (by decide) (by decide)),
     ((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).1 2).trans (((dats m 0 c).arrAt_in 2 rfl _).trans ((A_eq m c 2).trans (V_main_arg4 m c)))⟩) (run_main m ρ)

/-- The frame: @main terminates without a fault and the five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ)

end Cert.Kernel.Frame

end
-- ==== Proof.KernelIdealFrame.lean ====
/-
  The run of `KernelIdeal`'s @main, at any float instance: seventy host operations (the three row gathers of the pair
  list and their concatenation, the weight's change of format), one region of 32 grid points, and one reshape.
  At grid point `t` the region's body reads rows `4096·t … 4096·t + 4095` of the gathered matrix (a block of
  4096 × 384), the whole 384 × 768 weight and the whole bias of length 768, and stores one 4096 × 768 block of
  the product plus the bias; the block it stores covers its buffer, and the 32 blocks are written back to rows
  `4096·t …` of the 131072 × 768 result. No host operation writes an argument array and the region writes only
  its result array, so the five arguments end as they began. The run names the contents of every array of the
  region afterwards, and of every other buffer as the closing reshape leaves it.
-/
import proofs.«118170_j6055903887543_1_alg».proof.Proof.Gen.KernelIdeal.Launch
import proofs.«118170_j6055903887543_1_alg».proof.Proof.Gen.KernelIdeal.Skeleton
import proofs.«118170_j6055903887543_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The buffers of core `c` after the seventy host operations before the region. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations, then the region, then the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only buffers that outlive the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result, which is none of the region's four arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-! ## The blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not: where it is not
    fetched its block index has not moved since the fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or not: where it is not
    fetched its block index has not moved since the fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or not: where it is not
    fetched its block index has not moved since the fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

abbrev rA : Rect S4096x384 := Rect.unit (s := S4096x384) ![0, 0] S4096x384.size Facts₀.inb_S4096x384_S4096x384_0_0
abbrev rW : Rect S384x768 := Rect.unit (s := S384x768) ![0, 0] S384x768.size Facts₀.inb_S384x768_S384x768_0_0
abbrev rB : Rect S768 := Rect.unit (s := S768) ![0] S768.size Facts₀.inb_S768_S768_0
abbrev rO : Rect S4096x768 := Rect.unit (s := S4096x768) ![0, 0] S4096x768.size Facts₀.inb_S4096x768_S4096x768_0_0

/-- The result window's buffer after the body: one store of the product-plus-bias of the three input blocks,
    through the rectangle that is the whole 4096 × 768 buffer. -/
def outBlock (a : Vec F S4096x384 .f32) (w : Vec F S384x768 .bf16) (b : Vec F S768 .f32) : Vec F S4096x768 .f32 :=
  View.canon [⟨rO, k0_pay1 (View.ld a rA) (View.ld w rW) (View.ld b rB)⟩]

/-- That one rectangle covers the buffer. -/
theorem outBlock_cover (p0 : Vec F S4096x768 .f32) (y : S4096x768.Idx) :
    ∃ pc ∈ ([⟨rO, p0⟩] : List (View.Piece (Elt F) S4096x768 .f32)), y ∈ pc.1.set :=
  View.cover_of_tiled [⟨rO, p0⟩] S4096x768.size (by rfl) y

/-! ## The body -/

set_option maxHeartbeats 1000000 in
/-- The body on whole buffers, the three inputs' at contents `a`, `w`, `b` and the result's at anything, returns with
    the inputs' as they were and the result's at `outBlock a w b` (its read of the result buffer is not used). -/
theorem sound_kernel (c : Dev nD) (E : Set ℕ) (i : grid0.Coords) (arg1 : Memref sig .tc .vmem S4096x384 .f32) (harg1 : arg1.IsWhole) (arg2 : Memref sig .tc .vmem S384x768 .bf16) (harg2 : arg2.IsWhole) (arg3 : Memref sig .tc .vmem S768 .f32) (harg3 : arg3.IsWhole) (arg4 : Memref sig .tc .vmem S4096x768 .f32) (harg4 : arg4.IsWhole)
    (a : Vec F S4096x384 .f32) (w : Vec F S384x768 .bf16) (b : Vec F S768 .f32) (K : PUnit → sProp 𝕄) :
    iprop(owns (c : Thread nD τ) arg1 fullShare a ∗ owns (c : Thread nD τ) arg2 fullShare w ∗ owns (c : Thread nD τ) arg3 fullShare b ∗ (∃ d, owns (c : Thread nD τ) arg4 fullShare d)
        ∗ (iprop(owns (c : Thread nD τ) arg1 fullShare a ∗ owns (c : Thread nD τ) arg2 fullShare w ∗ owns (c : Thread nD τ) arg3 fullShare b ∗ owns (c : Thread nD τ) arg4 fullShare (outBlock a w b)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-! ## The region's proof data -/

/-- On core `c`: the arrays as the region finds them; after the body at point `t` each input buffer at its block
    and the result buffer at `outBlock` of the three input blocks; nothing else used, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the input buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; afterwards each array of the region holds what the 32
    write-backs leave, and every other unscoped buffer what the closing reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The reshape does not write argument 0, and the region's arrays are other buffers: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The reshape does not write argument 1, and the region's arrays are other buffers: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The reshape does not write argument 2, and the region's arrays are other buffers: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The reshape does not write argument 3, and the region's arrays are other buffers: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The run with the result named and the five arguments unchanged: the first four are buffers the region does
    not stage, the bias is an input array of the region and keeps its entry contents. -/
theorem run_named : θ_run defs (onTc (τ := τ) (main (F := F))) ⟨m, fun _ => 0, ρ⟩ (fun r => ∀ c : Dev nD,
      r.2.mem ((c.tc : Thread nD τ).loc main_v57) = Pipeline.afterTail₀ cfgs (dats m) 0 (V0 m) [hostOps1] c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v57 (Pipeline.mem_restRefs_of main_v57 (by decide) (by decide)),
     ((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).1 2).trans (((dats m 0 c).arrAt_in 2 rfl _).trans ((A_eq m c 2).trans (V_main_arg4 m c)))⟩) (run_main m ρ)

/-- The frame: @main terminates without a fault and the five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ)

end Cert.KernelIdeal.Frame

end
-- ==== Proof.KernelBlock.lean ====
/-
  One block of the kernel at the ideal instance, entry by entry. The body's stored value is
  `matmul (trunc a) w 0 + broadcast b`: the change of float format is the identity on extended reals, the
  matrix unit into a zero accumulator is the plain sum over the 384 contracted positions, and the bias row is
  repeated down the 4096 rows. So entry (p, q) of the stored block is `∑ k, a (p, k) · w (k, q) + b q`.
-/
import proofs.«118170_j6055903887543_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Facts₀
open Idealize.ShloMosaic Idealize.ShloMosaic.ValueIdx

/-- The matrix unit's operand indices at an output entry and a contracted position, coordinate by coordinate:
    the left operand is read at (row of the entry, position), the right at (position, column of the entry). -/
theorem lhs_row (i : S4096x768.Idx) (r : dot_S4096x384_S384x768_S4096x768_1_0_0_1_n_n.contr.Idx) : (dot_S4096x384_S384x768_S4096x768_1_0_0_1_n_n.lhsIdx i r 0).val = (i 0).val := by
  unfold DotDims.lhsIdx
  rw [dif_neg (show ¬(0 : Fin S4096x384.rank) ∈ dot_S4096x384_S384x768_S4096x768_1_0_0_1_n_n.lhsBatch by decide), dif_pos (show (0 : Fin S4096x384.rank) ∈ dot_S4096x384_S384x768_S4096x768_1_0_0_1_n_n.lhsNonContracting by decide)]
  rfl
theorem lhs_pos (i : S4096x768.Idx) (r : dot_S4096x384_S384x768_S4096x768_1_0_0_1_n_n.contr.Idx) : (dot_S4096x384_S384x768_S4096x768_1_0_0_1_n_n.lhsIdx i r 1).val = (r ⟨0, by decide⟩).val :=
  dot_S4096x384_S384x768_S4096x768_1_0_0_1_n_n.lhsIdx_val_of_single rfl i r
theorem rhs_pos (i : S4096x768.Idx) (r : dot_S4096x384_S384x768_S4096x768_1_0_0_1_n_n.contr.Idx) : (dot_S4096x384_S384x768_S4096x768_1_0_0_1_n_n.rhsIdx i r 0).val = (r ⟨0, by decide⟩).val :=
  dot_S4096x384_S384x768_S4096x768_1_0_0_1_n_n.rhsIdx_val_of_single rfl i r
theorem rhs_col (i : S4096x768.Idx) (r : dot_S4096x384_S384x768_S4096x768_1_0_0_1_n_n.contr.Idx) : (dot_S4096x384_S384x768_S4096x768_1_0_0_1_n_n.rhsIdx i r 1).val = (i 1).val := by
  unfold DotDims.rhsIdx
  rw [dif_neg (show ¬(1 : Fin S384x768.rank) ∈ dot_S4096x384_S384x768_S4096x768_1_0_0_1_n_n.rhsBatch by decide), dif_pos (show (1 : Fin S384x768.rank) ∈ dot_S4096x384_S384x768_S4096x768_1_0_0_1_n_n.rhsNonContracting by decide)]
  rfl

theorem lhs_at (p : Fin 4096) (q : Fin 768) (k : Fin 384) :
    dot_S4096x384_S384x768_S4096x768_1_0_0_1_n_n.lhsIdx (ix2 p q) ((contrEquiv1 dot_S4096x384_S384x768_S4096x768_1_0_0_1_n_n 384 rfl rfl).symm k) = ix2 p k := by
  have hk := contrEquiv1_symm_val dot_S4096x384_S384x768_S4096x768_1_0_0_1_n_n 384 rfl rfl k
  exact funext fun a => Fin.ext (by
    match a with
    | ⟨0, _⟩ => exact lhs_row _ _
    | ⟨1, _⟩ => exact (lhs_pos _ _).trans hk)

theorem rhs_at (p : Fin 4096) (q : Fin 768) (k : Fin 384) :
    dot_S4096x384_S384x768_S4096x768_1_0_0_1_n_n.rhsIdx (ix2 p q) ((contrEquiv1 dot_S4096x384_S384x768_S4096x768_1_0_0_1_n_n 384 rfl rfl).symm k) = ix2 k q := by
  have hk := contrEquiv1_symm_val dot_S4096x384_S384x768_S4096x768_1_0_0_1_n_n 384 rfl rfl k
  exact funext fun a => Fin.ext (by
    match a with
    | ⟨0, _⟩ => exact (rhs_pos _ _).trans hk
    | ⟨1, _⟩ => exact rhs_col _ _)

/-- The product part: the sum over the contracted axis. -/
theorem product_at (a : FVec Ideal S4096x384 .bf16) (w : FVec Ideal S384x768 .bf16) (p : Fin 4096) (q : Fin 768) :
    matmul (F := Ideal) dot_S4096x384_S384x768_S4096x768_1_0_0_1_n_n none a w (constant (F := Ideal) S4096x768 .f32 0x00000000#32) (ix2 p q)
      = ∑ k : Fin 384, a (ix2 p k) * w (ix2 k q) := by
  simp only [matmul]
  rw [Ideal.matmul_constant_zero_apply, ← Equiv.sum_comp (contrEquiv1 dot_S4096x384_S384x768_S4096x768_1_0_0_1_n_n 384 rfl rfl).symm]
  refine Finset.sum_congr rfl fun k _ => ?_
  rw [lhs_at, rhs_at]

/-- The bias row repeated: entry (p, q) of the broadcast is entry q of the bias. -/
theorem bias_at (b : FVec Ideal S768 .f32) (p : Fin 4096) (q : Fin 768) :
    broadcastTo S4096x768 (shapeCast S1x768 b shapeCasts_S768_S1x768) broadcasts_S1x768_S4096x768 (ix2 p q) = b (ix1 q) := by
  rw [broadcastTo_apply _ broadcasts_S1x768_S4096x768 (ix2 p q) (ix2 (0 : Fin 1) q) (fun a => by
    match a with
    | ⟨0, _⟩ => rfl
    | ⟨1, _⟩ => rfl)]
  rw [shapeCast_addUnit_apply]
  exact congrArg b (funext fun a => by match a with | ⟨0, _⟩ => rfl)

/-- Entry (p, q) of the block the body stores. -/
theorem stored_at (a : Vec Ideal S4096x384 .f32) (w : Vec Ideal S384x768 .bf16) (b : Vec Ideal S768 .f32) (p : Fin 4096) (q : Fin 768) :
    Gen.k0_pay1 (F := Ideal) a w b (ix2 p q) = (∑ k : Fin 384, a (ix2 p k) * w (ix2 k q)) + b (ix1 q) := by
  unfold Gen.k0_pay1
  rw [addf_apply, shapeCast_self, shapeCast_self, product_at, bias_at]
  rfl

end Cert.KernelIdeal.Block

end
-- ==== Proof.PairLinear.lean ====
/-
  The function both programs compute before their closing reshape: for a matrix `M` of 131072 rows and 384
  columns, a weight `W` of 384 × 768 and a bias `b` of length 768, entry (e, n) is
  `∑ k, M (e, k) · W (k, n) + b n` on the extended reals. Only the order of the factors and of the two summands
  matters below, so nothing here needs the entries to be finite.
-/
import Idealize.ShloMosaic.PureOps.Ideal
import Idealize.ShloMosaic.Lib.ValueIdx

noncomputable section

open scoped BigOperators

namespace Cert.PairLinear

open Idealize.ShloMosaic Idealize.ShloMosaic.ValueIdx

/-- Entry (e, n) of `M · W + b`, the bias added to every row. -/
def affine (M : (⟨2, ![131072, 384]⟩ : Shape).Idx → EReal) (W : (⟨2, ![384, 768]⟩ : Shape).Idx → EReal)
    (b : (⟨1, ![768]⟩ : Shape).Idx → EReal) : (⟨2, ![131072, 768]⟩ : Shape).Idx → EReal :=
  fun i => (∑ k : Fin 384, M (ix2 (i 0) k) * W (ix2 k (i 1))) + b (ix1 (i 1))

theorem affine_apply (M : (⟨2, ![131072, 384]⟩ : Shape).Idx → EReal) (W : (⟨2, ![384, 768]⟩ : Shape).Idx → EReal)
    (b : (⟨1, ![768]⟩ : Shape).Idx → EReal) (e : Fin 131072) (n : Fin 768) :
    affine M W b (ix2 e n) = (∑ k : Fin 384, M (ix2 e k) * W (ix2 k n)) + b (ix1 n) := rfl

end Cert.PairLinear

end
-- ==== Proof.KernelIdealValue.lean ====
/-
  What the idealized kernel's result array holds after the run, as one function of the three arrays the region
  reads: rows of the gathered matrix `M` (131072 × 384), the weight `W` (384 × 768) and the bias `b` (768).
  Grid point `t` reads rows `4096·t … 4096·t + 4095` of `M`, all of `W` and all of `b`, and writes back rows
  `4096·t …` of the result; entry (p, q) of its block is `∑ k, M (4096·t + p, k) · W (k, q) + b q`, which is entry
  (4096·t + p, q) of `M · W + b`. Every row `e` lies in the block of point `e / 4096`, so the 32 blocks cover the
  array and it ends at `M · W + b`. The closing reshape regroups the rows as 32 × 4096 and changes no entry.
-/
import proofs.«118170_j6055903887543_1_alg».proof.Proof.KernelIdealFrame
import proofs.«118170_j6055903887543_1_alg».proof.Proof.KernelBlock
import proofs.«118170_j6055903887543_1_alg».proof.Proof.PairLinear
import Idealize.ShloMosaic.Lib.Pipeline.Value
import Idealize.ShloMosaic.Lib.StableHlo.Run

set_option maxRecDepth 16384

noncomputable section

open scoped BigOperators

namespace Cert.KernelIdeal.Result

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The block indices over the grid: the row block of the gathered matrix is the row block of the result, which
    is the point's number; every other block index is zero. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0 :=
  (by decide +kernel : ∀ t : Fin grid0.N, _)

/-- Every one of the 32 row blocks of the result is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- The three arrays the region reads, as it finds them, read as functions into the extended reals. -/
abbrev rowsIn (c : Dev nD) : S131072x384.Idx → EReal := V m c main_v54
abbrev weightIn (c : Dev nD) : S384x768.Idx → EReal := V m c main_v55
abbrev biasIn (c : Dev nD) : S768.Idx → EReal := V m c main_arg4

/-- `M · W + b` of the arrays as the region finds them. -/
def whole (c : Dev nD) : S131072x768.Idx → EReal :=
  Cert.PairLinear.affine (V m c main_v54) (V m c main_v55) (V m c main_arg4)

set_option maxHeartbeats 4000000 in
/-- What point `t` writes back is block `t` of `M · W + b`. -/
theorem flushed_eq (c : Dev nD) (t : Fin cfg0.N) :
    (dats m 0 c).flushed 3 t = ((cfg0.win 3).blk t).view.read (Elt Ideal) (whole m c) := by
  show (cfg0.win 3).cut (grid0.coords t) ((dats m 0 c).after 3 t) = _
  rw [after3]
  unfold outBlock
  rw [View.canon_unit_zero hz2]
  simp only [View.ld_unit_zero (S := S4096x384) hz2, View.ld_unit_zero (S := S384x768) hz2, View.ld_unit_zero (S := S768) hz1]
  obtain ⟨e0, e1, e2, e3, e4, e5⟩ := idx_facts t
  funext j
  obtain ⟨p, q, rfl⟩ : ∃ (p : Fin 4096) (q : Fin 768), j = ix2 p q := ⟨j 0, j 1, eq_ix2 j⟩
  refine (Cert.KernelIdeal.Block.stored_at _ _ _ p q).trans ?_
  have hA : ∀ k : Fin 384, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 4096 + 1 * p.val = win0_3.index t (0 : Fin 2) * 4096 + 1 * p.val; omega
    | ⟨1, _⟩ => show win0_0.index t (1 : Fin 2) * 384 + 1 * k.val = k.val; omega
  have hW : ∀ k : Fin 384, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 384 + 1 * k.val = k.val; omega
    | ⟨1, _⟩ => show win0_1.index t (1 : Fin 2) * 768 + 1 * q.val = win0_3.index t (1 : Fin 2) * 768 + 1 * q.val; omega
  have hB : ((cfg0.win 2).blk t).view.emb (ix1 q) = ix1 ((((cfg0.win 3).blk t).view.emb (ix2 p q)) 1) := by
    funext a; apply Fin.ext
    match a with
    | ⟨0, _⟩ => show win0_2.index t (0 : Fin 1) * 768 + 1 * q.val = win0_3.index t (1 : Fin 2) * 768 + 1 * q.val; omega
  show (∑ k : Fin 384, rowsIn m c (((cfg0.win 0).blk t).view.emb (ix2 p k)) * weightIn m c (((cfg0.win 1).blk t).view.emb (ix2 k q)))
        + biasIn m c (((cfg0.win 2).blk t).view.emb (ix1 q))
      = (∑ k : Fin 384, rowsIn m c (ix2 ((((cfg0.win 3).blk t).view.emb (ix2 p q)) 0) k) * weightIn m c (ix2 k ((((cfg0.win 3).blk t).view.emb (ix2 p q)) 1)))
        + biasIn m c (ix1 ((((cfg0.win 3).blk t).view.emb (ix2 p q)) 1))
  simp only [hA, hW, hB]
  rfl

/-- An index of the result array is in point `t`'s block iff each coordinate is in the block's range. -/
theorem mem_blk (t : Fin cfg0.N) (i : S131072x768.Idx) :
    i ∈ ((cfg0.win 3).blk t).view.set ↔ ∀ a : Fin 2, win0_3.index t a * S4096x768.size a ≤ (i a).val ∧ (i a).val < win0_3.index t a * S4096x768.size a + S4096x768.size a := by
  show i ∈ ((View.whole main_v56).slice (win0_3.rect t)).set ↔ _
  rw [View.set_slice_whole, Rect.mem_set_unit]
  exact Iff.rfl

/-- Row `e` is written back by point `e / 4096`. -/
theorem cover (i : S131072x768.Idx) : ∃ t : Fin cfg0.N, (cfg0.win 3).flush t = true ∧ i ∈ ((cfg0.win 3).blk t).view.set := by
  have hi0 : (i 0).val < 131072 := (i 0).isLt
  have hi1 : (i 1).val < 768 := (i 1).isLt
  obtain ⟨t, ht⟩ := idx_onto ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 768 ≤ (i 1).val ∧ (i 1).val < win0_3.index t (1 : Fin 2) * 768 + 768; omega

/-- The result array after the 32 write-backs. -/
theorem final (c : Dev nD) : (dats m 0 c).arrAt 3 cfg0.N = whole m c :=
  (dats m 0 c).arrAt_eq_of_cover 3 (whole m c) (fun t _ => flushed_eq m c t) (cover)

/-- The weight the region finds is the argument's, its change of format being the identity on extended reals. -/
theorem entry_weight (c : Dev nD) : (V m c main_v55 : S384x768.Idx → EReal) = m ((c : Thread nD τ).loc main_arg3) := by
  show StableHlo.after hostOps0 (fun b => m (c, b)) (Proc.devRef .tc main_v55) = _
  after_results
  rfl

/-- The reshape after the region regroups the rows of `M · W + b`. -/
theorem result_eq (c : Dev nD) :
    Pipeline.afterTail₀ cfgs (dats m) 0 (V0 m) [hostOps1] c main_v57
      = shapeCast S32x4096x768 (whole m c) Facts₀.shapeCasts_S131072x768_S32x4096x768 := by
  unfold Pipeline.afterTail₀
  show StableHlo.after hostOps1 _ (Proc.devRef .tc main_v57) = _
  after_results
  rw [(Pipeline.withArrays_arr spec0 launch0.win.arr_inj c _ _ 3).trans (final m c)]
  rfl

/-- The run with the result named as a function of the region-entry arrays, the arguments unchanged. -/
theorem run_value : θ_run defs (onTc (τ := τ) (main (F := Ideal))) ⟨m, fun _ => 0, ρ⟩ (fun r => ∀ c : Dev nD,
      r.2.mem ((c.tc : Thread nD τ).loc main_v57) = shapeCast S32x4096x768 (whole m c) Facts₀.shapeCasts_S131072x768_S32x4096x768
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m c), (h c).2⟩) (run_named m ρ)

end Cert.KernelIdeal.Result

end
-- ==== Proof.ReferenceValue.lean ====
/-
  The reference before its closing reshape, entry by entry: `dot_general` of the gathered matrix `M` with the
  weight `W` contracts M's columns with W's rows, so entry (e, n) is `∑ k, M (e, k) · W (k, n)`; the bias is
  broadcast first to one row and then down all 131072 rows, so it contributes `b n`; their sum is `M · W + b`.
-/
import proofs.«118170_j6055903887543_1_alg».proof.Proof.Gen.ReferenceIdeal.Read
import proofs.«118170_j6055903887543_1_alg».proof.Proof.PairLinear

noncomputable section

open scoped BigOperators

namespace Cert.ReferenceIdeal.RefValue

open Cert.ReferenceIdeal Cert.ReferenceIdeal.Read
open Idealize.ShloMosaic Idealize.ShloMosaic.ValueIdx

/-- The reference's array before the reshape is `M · W + b` with `M` its gathered matrix. -/
theorem before_reshape (x0 : (⟨S32x128x128, .f32⟩ : BufTy).Contents (Elt Ideal)) (x1 : (⟨S32x128x128x128, .f32⟩ : BufTy).Contents (Elt Ideal))
    (x2 : (⟨S131072x3, .i32⟩ : BufTy).Contents (Elt Ideal)) (x3 : (⟨S384x768, .f32⟩ : BufTy).Contents (Elt Ideal)) (x4 : (⟨S768, .f32⟩ : BufTy).Contents (Elt Ideal)) :
    val_main_v58 (F := Ideal) x0 x1 x2 x3 x4 = Cert.PairLinear.affine (val_main_v54 (F := Ideal) x0 x1 x2) x3 x4 := by
  funext i
  obtain ⟨e, n, rfl⟩ : ∃ (e : Fin 131072) (n : Fin 768), i = ix2 e n := ⟨i 0, i 1, eq_ix2 i⟩
  rw [val_main_v58_apply, val_main_v55_apply, val_main_v57_apply, val_main_v56_apply]
  have hl : ∀ k : Fin 384, lidx_main_v55 (ix2 e n) k = ix2 e k := fun k => funext fun a => Fin.ext (by
    match a with
    | ⟨0, _⟩ => rfl
    | ⟨1, _⟩ => rfl)
  have hr : ∀ k : Fin 384, ridx_main_v55 (ix2 e n) k = ix2 k n := fun k => funext fun a => Fin.ext (by
    match a with
    | ⟨0, _⟩ => rfl
    | ⟨1, _⟩ => rfl)
  have hb : idx_main_v56 (idx_main_v57 (ix2 e n)) = ix1 n := funext fun a => Fin.ext (by
    match a with
    | ⟨0, _⟩ => rfl)
  simp only [hl, hr, hb]
  rfl

/-- The reference's result is the reshape of `M · W + b`. -/
theorem result_eq (x0 : (⟨S32x128x128, .f32⟩ : BufTy).Contents (Elt Ideal)) (x1 : (⟨S32x128x128x128, .f32⟩ : BufTy).Contents (Elt Ideal))
    (x2 : (⟨S131072x3, .i32⟩ : BufTy).Contents (Elt Ideal)) (x3 : (⟨S384x768, .f32⟩ : BufTy).Contents (Elt Ideal)) (x4 : (⟨S768, .f32⟩ : BufTy).Contents (Elt Ideal)) :
    val_main_v59 (F := Ideal) x0 x1 x2 x3 x4
      = shapeCast S32x4096x768 (Cert.PairLinear.affine (val_main_v54 (F := Ideal) x0 x1 x2) x3 x4) Facts₀.shapeCasts_S131072x768_S32x4096x768 := by
  unfold val_main_v59
  rw [before_reshape]

end Cert.ReferenceIdeal.RefValue

end
-- ==== Proof.GatheredRows.lean ====
/-
  Both programs build the gathered matrix by the same host operations: the pair list's three columns, each
  index wrapped once when negative, the three row gathers out of the node and edge features, and their
  concatenation side by side. Written over the same argument arrays the two terms are the same term, so the
  matrix the kernel's region finds is the reference's gathered matrix.
-/
import proofs.«118170_j6055903887543_1_alg».proof.Proof.KernelIdealFrame
import proofs.«118170_j6055903887543_1_alg».proof.Proof.Gen.ReferenceIdeal.Read
import Idealize.ShloMosaic.Lib.StableHlo.Run

set_option maxRecDepth 16384

noncomputable section

namespace Cert.Proof.Rows

open Idealize.ShloMosaic Idealize.ShloMosaic.TcCoe Idealize.SL.Sem

set_option maxHeartbeats 8000000 in
/-- The matrix the region reads its row blocks from is the reference's gathered matrix of the same arguments. -/
theorem gathered_eq (m : (ℓ : Loc Cert.KernelIdeal.nD Cert.KernelIdeal.τ Cert.KernelIdeal.sig) → Buf (Elt Ideal) ℓ) (c : Dev Cert.KernelIdeal.nD) :
    (Cert.KernelIdeal.Frame.V m c Cert.KernelIdeal.main_v54 : Cert.KernelIdeal.S131072x384.Idx → EReal)
      = Cert.ReferenceIdeal.Read.val_main_v54 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  show StableHlo.after Cert.KernelIdeal.Gen.hostOps0 (fun b => m (c, b)) (Proc.devRef .tc Cert.KernelIdeal.main_v54) = _
  after_results
  rfl

end Cert.Proof.Rows

end
-- ==== Proof.lean ====
/-
  The kernel computes a per-pair linear layer: for each of the 131072 pairs (b, i, j) of the pair list it gathers
  the node feature rows (b, i) and (b, j) and the edge feature row (b, i, j), lays the three rows of length 128 side
  by side as one row of the matrix `M` (131072 × 384), and returns `M · W + bias` regrouped as 32 × 4096 × 768.
  The kernel does the gathers on the host exactly as the reference does, changes the weight's float format (the
  identity on extended reals), and computes the product 4096 rows at a time, each block by the matrix unit into a
  zero accumulator with the bias added; the reference is one whole `dot_general` plus the broadcast bias.
  At the ideal instance both are entry by entry `∑ k, M (e, k) · W (k, n) + bias n`: the zero accumulator is the
  unit of addition, and the 32 row blocks tile the rows. No law that fails at an infinity is used, so the
  precondition is never opened. The idealized kernel is the printed kernel's own text read at the ideal instance, no
  operation replaced, so `preserves` has no conjunct to state and is the true proposition.
  The three frames: each program terminates without a fault and leaves its five argument arrays unchanged (for the
  two kernel programs, from the run of the host operations, the region and the closing reshape; for the reference,
  from its run as a list of host operations).
-/
import proofs.«118170_j6055903887543_1_alg».proof.Defs
import proofs.«118170_j6055903887543_1_alg».proof.Proof.Gen.Kernel
import proofs.«118170_j6055903887543_1_alg».proof.Proof.Gen.KernelIdeal
import proofs.«118170_j6055903887543_1_alg».proof.Proof.Gen.ReferenceIdeal
import proofs.«118170_j6055903887543_1_alg».proof.Proof.Gen.Pre_finite_inputs
import proofs.«118170_j6055903887543_1_alg».proof.Proof.Gen.ReferenceIdeal.Run
import proofs.«118170_j6055903887543_1_alg».proof.Proof.Gen.ReferenceIdeal.Read
import proofs.«118170_j6055903887543_1_alg».proof.Proof.KernelFrame
import proofs.«118170_j6055903887543_1_alg».proof.Proof.KernelIdealFrame
import proofs.«118170_j6055903887543_1_alg».proof.Proof.KernelIdealValue
import proofs.«118170_j6055903887543_1_alg».proof.Proof.ReferenceValue
import proofs.«118170_j6055903887543_1_alg».proof.Proof.GatheredRows
import Idealize.ShloMosaic.Adequacy
import Idealize.ShloMosaic.Init

noncomputable section

namespace Cert.Proof

open Idealize.ShloMosaic Idealize.ShloMosaic.TcCoe Idealize.SL.Sem

/-- The printed kernel terminates and leaves its arguments unchanged. -/
theorem frame_kernel : Cert.frame_Kernel := fun m ρ _ => Cert.Kernel.Frame.frame m ρ

/-- So does its idealization. -/
theorem frame_kernel_ideal : Cert.frame_KernelIdeal := fun m ρ _ => Cert.KernelIdeal.Frame.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was replaced in its idealization: nothing to state. -/
theorem preserves : Cert.preserves_Kernel_KernelIdeal := trivial

/-- From memories agreeing on the arguments both programs end at the reshape of `M · W + bias`, with `M` the
    gathered matrix of the arguments. -/
theorem algebraic : Cert.algebraic_KernelIdeal_ReferenceIdeal := by
  intro m ρ m' ρ' _ hagree
  refine ⟨fun c => shapeCast Cert.KernelIdeal.S32x4096x768 (Cert.KernelIdeal.Result.whole m c) Cert.KernelIdeal.Facts₀.shapeCasts_S131072x768_S32x4096x768,
    Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, (hagree c).1, (hagree c).2.1, (hagree c).2.2.1, (hagree c).2.2.2.1, (hagree c).2.2.2.2,
    Cert.ReferenceIdeal.RefValue.result_eq]
  unfold Cert.KernelIdeal.Result.whole
  beta_reduce
  rw [Cert.Proof.Rows.gathered_eq m c, Cert.KernelIdeal.Result.entry_weight m c, Cert.KernelIdeal.Frame.V_main_arg4 m c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
